-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S32x2 : Shape := ⟨2, ![32, 2]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel

variable [Facts]

def fn {F : FTy → Type} [FloatOps F] (main_arg0 : FVec F S32x512x768 .f32) (main_arg1 : IVec S32x2 32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  main_v3
-- ==== Kernel.lean ====
abbrev S32x512x768 : Shape := ⟨3, ![32, 512, 768]⟩
abbrev S32x2 : Shape := ⟨2, ![32, 2]⟩
abbrev S32x2x1 : Shape := ⟨3, ![32, 2, 1]⟩
abbrev S_ : Shape := ⟨0, ![]⟩
abbrev S1 : Shape := ⟨1, ![1]⟩
abbrev S1x1x1 : Shape := ⟨3, ![1, 1, 1]⟩
abbrev S32x2x768 : Shape := ⟨3, ![32, 2, 768]⟩
abbrev S32x512x1536 : Shape := ⟨3, ![32, 512, 1536]⟩
abbrev S1x2x768 : Shape := ⟨3, ![1, 2, 768]⟩
abbrev S1x512x768 : Shape := ⟨3, ![1, 512, 768]⟩
abbrev S1x512x1536 : Shape := ⟨3, ![1, 512, 1536]⟩
abbrev S2x768 : Shape := ⟨2, ![2, 768]⟩
abbrev S512x768 : Shape := ⟨2, ![512, 768]⟩
abbrev S2x512 : Shape := ⟨2, ![2, 512]⟩
abbrev S1x512 : Shape := ⟨2, ![1, 512]⟩
abbrev S512 : Shape := ⟨1, ![512]⟩
abbrev S512x1 : Shape := ⟨2, ![512, 1]⟩

abbrev nBuf : Space → Nat
  | .hbm => 26
  | .vmem => 6
  | .smem => 0
  | _ => 0

abbrev bufTy : (tb : Table) → Fin (tcTables nBuf tb) → BufTy
  | .hbm, ⟨0, _⟩ => ⟨S32x512x768, .f32⟩
  | .hbm, ⟨1, _⟩ => ⟨S32x2, .i32⟩
  | .hbm, ⟨2, _⟩ => ⟨S32x2x1, .i32⟩
  | .hbm, ⟨3, _⟩ => ⟨S_, .i32⟩
  | .hbm, ⟨4, _⟩ => ⟨S32x2x1, .i32⟩
  | .hbm, ⟨5, _⟩ => ⟨S32x2x1, .i1⟩
  | .hbm, ⟨6, _⟩ => ⟨S_, .i32⟩
  | .hbm, ⟨7, _⟩ => ⟨S32x2x1, .i32⟩
  | .hbm, ⟨8, _⟩ => ⟨S32x2x1, .i32⟩
  | .hbm, ⟨9, _⟩ => ⟨S32x2x1, .i32⟩
  | .hbm, ⟨10, _⟩ => ⟨S1, .i32⟩
  | .hbm, ⟨11, _⟩ => ⟨S_, .i32⟩
  | .hbm, ⟨12, _⟩ => ⟨S32x2x1, .i32⟩
  | .hbm, ⟨13, _⟩ => ⟨S32x2x1, .i1⟩
  | .hbm, ⟨14, _⟩ => ⟨S1x1x1, .i32⟩
  | .hbm, ⟨15, _⟩ => ⟨S32x2x1, .i32⟩
  | .hbm, ⟨16, _⟩ => ⟨S32x2x1, .i1⟩
  | .hbm, ⟨17, _⟩ => ⟨S32x2x1, .i1⟩
  | .hbm, ⟨18, _⟩ => ⟨S_, .i1⟩
  | .hbm, ⟨19, _⟩ => ⟨S32x2, .i1⟩
  | .hbm, ⟨20, _⟩ => ⟨S32x2x768, .f32⟩
  | .hbm, ⟨21, _⟩ => ⟨S32x2x768, .i1⟩
  | .hbm, ⟨22, _⟩ => ⟨S_, .f32⟩
  | .hbm, ⟨23, _⟩ => ⟨S32x2x768, .f32⟩
  | .hbm, ⟨24, _⟩ => ⟨S32x2x768, .f32⟩
  | .hbm, ⟨25, _⟩ => ⟨S32x512x1536, .f32⟩
  | .local _ .vmem, ⟨0, _⟩ => ⟨S1x2x768, .f32⟩
  | .local _ .vmem, ⟨1, _⟩ => ⟨S1x2x768, .f32⟩
  | .local _ .vmem, ⟨2, _⟩ => ⟨S1x512x768, .f32⟩
  | .local _ .vmem, ⟨3, _⟩ => ⟨S1x512x768, .f32⟩
  | .local _ .vmem, ⟨4, _⟩ => ⟨S1x512x1536, .f32⟩
  | .local _ .vmem, ⟨5, _⟩ => ⟨S1x512x1536, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S32x2_S32x2x1_0_1 : S32x2.BroadcastsInDim S32x2x1 (![0, 1] : Fin 2 → Fin S32x2x1.rank)
  bcast_S_S32x2x1 : S_.BroadcastsInDim S32x2x1 (![] : Fin 0 → Fin S32x2x1.rank)
  bcast_S1_S1x1x1_2 : S1.BroadcastsInDim S1x1x1 (![2] : Fin 1 → Fin S1x1x1.rank)
  bcast_S1x1x1_S32x2x1_0_1_2 : S1x1x1.BroadcastsInDim S32x2x1 (![0, 1, 2] : Fin 3 → Fin S32x2x1.rank)
  reducesTo_S32x2x1_S32x2_d2 : S32x2x1.ReducesTo [2] S32x2
  h_S_ : 0 < S_.numel
  bcast_S32x2_S32x2x768_0_1 : S32x2.BroadcastsInDim S32x2x768 (![0, 1] : Fin 2 → Fin S32x2x768.rank)
  bcast_S_S32x2x768 : S_.BroadcastsInDim S32x2x768 (![] : Fin 0 → Fin S32x2x768.rank)
  inb_S1x2x768_S1x2x768_0_0_0 : ∀ a, (![0, 0, 0] : Fin 3 → Nat) a + S1x2x768.size a ≤ S1x2x768.size a
  h_S1x2x768 : 0 < S1x2x768.numel
  shapeCasts_S1x2x768_S2x768 : S1x2x768.ShapeCasts S2x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  slices_S2x512_o0_0_S1x512 : S2x512.Slices ![0, 0] S1x512
  shapeCasts_S1x512_S512 : S1x512.ShapeCasts S512
  shapeCasts_S512_S512x1 : S512.ShapeCasts S512x1
  slices_S2x512_o1_0_S1x512 : S2x512.Slices ![1, 0] S1x512
  broadcasts_S512x1_S512x768 : S512x1.Broadcasts S512x768
  inb_S1x512x1536_S1x512x768_0_0_0 : ∀ a, (![0, 0, 0] : Fin 3 → Nat) a + S1x512x768.size a ≤ S1x512x1536.size a
  shapeCasts_S512x768_S1x512x768 : S512x768.ShapeCasts S1x512x768
  inb_S1x512x1536_S1x512x768_0_0_768 : ∀ a, (![0, 0, 768] : Fin 3 → Nat) a + S1x512x768.size a ≤ S1x512x1536.size a
  gather_S32x512x768_S32x2x1_S32x2x768_2_1_0_0_1_2_11768_wf : GatherDims.WF S32x512x768 S32x2x1 S32x2x768 [2] [1] [0] [1] [0] 2 ![1, 1, 768]
  dot_S2x768_S512x768_S2x512_1_1_0_0_n_n_wf : DotDims.WF S2x768 S512x768 S2x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x768.size a ≤ S32x2x768.size a
  hwx0_0 : ∀ i : grid0.Coords, EltTy.bits .f32 = 32 ∨ (Rect.block (s := S32x2x768) S1x2x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x768.size a ≤ S32x512x768.size a
  hwx0_1 : ∀ i : grid0.Coords, EltTy.bits .f32 = 32 ∨ (Rect.block (s := S32x512x768) S1x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1536.size a ≤ S32x512x1536.size a
  hwx0_2 : ∀ i : grid0.Coords, EltTy.bits .f32 = 32 ∨ (Rect.block (s := S32x512x1536) S1x512x1536.size (cc0_transform_2 i) (hinb0_2 i)).WholeWords (EltTy.packing .f32)

variable [Facts₀]

def gather_S32x512x768_S32x2x1_S32x2x768_2_1_0_0_1_2_11768 : GatherDims S32x512x768 S32x2x1 S32x2x768 where
  offsetDims := [2]
  collapsedSliceDims := [1]
  operandBatchingDims := [0]
  startIndicesBatchingDims := [0]
  startIndexMap := [1]
  indexVectorDim := 2
  sliceSizes := ![1, 1, 768]
  wf := gather_S32x512x768_S32x2x1_S32x2x768_2_1_0_0_1_2_11768_wf
def dot_S2x768_S512x768_S2x512_1_1_0_0_n_n : DotDims S2x768 S512x768 S2x512 where
  lhsContracting := [1]
  rhsContracting := [1]
  lhsNonContracting := [0]
  rhsNonContracting := [0]
  lhsBatch := []
  rhsBatch := []
  wf := dot_S2x768_S512x768_S2x512_1_1_0_0_n_n_wf

abbrev win0_0 : Pipeline.Window sig grid0 :=
  Pipeline.Window.ofSpec (Memref.whole main_v1) S1x2x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S32x2 : Shape := ⟨2, ![32, 2]⟩
abbrev S32x2x1 : Shape := ⟨3, ![32, 2, 1]⟩
abbrev S_ : Shape := ⟨0, ![]⟩
abbrev S1 : Shape := ⟨1, ![1]⟩
abbrev S1x1x1 : Shape := ⟨3, ![1, 1, 1]⟩
abbrev S32x2x768 : Shape := ⟨3, ![32, 2, 768]⟩
abbrev S32x2x512 : Shape := ⟨3, ![32, 2, 512]⟩
abbrev S32x1x512 : Shape := ⟨3, ![32, 1, 512]⟩
abbrev S32x512 : Shape := ⟨2, ![32, 512]⟩
abbrev S32x512x1 : Shape := ⟨3, ![32, 512, 1]⟩
abbrev S32x512x1536 : Shape := ⟨3, ![32, 512, 1536]⟩

abbrev nBuf : Space → Nat
  | .hbm => 37
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S32x2, .i32⟩
  | .hbm, ⟨2, _⟩ => ⟨S32x2x1, .i32⟩
  | .hbm, ⟨3, _⟩ => ⟨S_, .i32⟩
  | .hbm, ⟨4, _⟩ => ⟨S32x2x1, .i32⟩
  | .hbm, ⟨5, _⟩ => ⟨S32x2x1, .i1⟩
  | .hbm, ⟨6, _⟩ => ⟨S_, .i32⟩
  | .hbm, ⟨7, _⟩ => ⟨S32x2x1, .i32⟩
  | .hbm, ⟨8, _⟩ => ⟨S32x2x1, .i32⟩
  | .hbm, ⟨9, _⟩ => ⟨S32x2x1, .i32⟩
  | .hbm, ⟨10, _⟩ => ⟨S1, .i32⟩
  | .hbm, ⟨11, _⟩ => ⟨S_, .i32⟩
  | .hbm, ⟨12, _⟩ => ⟨S32x2x1, .i32⟩
  | .hbm, ⟨13, _⟩ => ⟨S32x2x1, .i1⟩
  | .hbm, ⟨14, _⟩ => ⟨S1x1x1, .i32⟩
  | .hbm, ⟨15, _⟩ => ⟨S32x2x1, .i32⟩
  | .hbm, ⟨16, _⟩ => ⟨S32x2x1, .i1⟩
  | .hbm, ⟨17, _⟩ => ⟨S32x2x1, .i1⟩
  | .hbm, ⟨18, _⟩ => ⟨S_, .i1⟩
  | .hbm, ⟨19, _⟩ => ⟨S32x2, .i1⟩
  | .hbm, ⟨20, _⟩ => ⟨S32x2x768, .f32⟩
  | .hbm, ⟨21, _⟩ => ⟨S32x2x768, .i1⟩
  | .hbm, ⟨22, _⟩ => ⟨S_, .f32⟩
  | .hbm, ⟨23, _⟩ => ⟨S32x2x768, .f32⟩
  | .hbm, ⟨24, _⟩ => ⟨S32x2x768, .f32⟩
  | .hbm, ⟨25, _⟩ => ⟨S32x2x512, .f32⟩
  | .hbm, ⟨26, _⟩ => ⟨S32x1x512, .f32⟩
  | .hbm, ⟨27, _⟩ => ⟨S32x512, .f32⟩
  | .hbm, ⟨28, _⟩ => ⟨S32x512x1, .f32⟩
  | .hbm, ⟨29, _⟩ => ⟨S32x512x768, .f32⟩
  | .hbm, ⟨30, _⟩ => ⟨S32x512x768, .f32⟩
  | .hbm, ⟨31, _⟩ => ⟨S32x1x512, .f32⟩
  | .hbm, ⟨32, _⟩ => ⟨S32x512, .f32⟩
  | .hbm, ⟨33, _⟩ => ⟨S32x512x1, .f32⟩
  | .hbm, ⟨34, _⟩ => ⟨S32x512x768, .f32⟩
  | .hbm, ⟨35, _⟩ => ⟨S32x512x768, .f32⟩
  | .hbm, ⟨36, _⟩ => ⟨S32x512x1536, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩

abbrev nD : Nat := 1
abbrev τ : Topo := Topo.v7x

variable {F : FTy → Type} [FloatOps F]

class Facts₀ : Prop where
  bcast_S32x2_S32x2x1_0_1 : S32x2.BroadcastsInDim S32x2x1 (![0, 1] : Fin 2 → Fin S32x2x1.rank)
  bcast_S_S32x2x1 : S_.BroadcastsInDim S32x2x1 (![] : Fin 0 → Fin S32x2x1.rank)
  bcast_S1_S1x1x1_2 : S1.BroadcastsInDim S1x1x1 (![2] : Fin 1 → Fin S1x1x1.rank)
  bcast_S1x1x1_S32x2x1_0_1_2 : S1x1x1.BroadcastsInDim S32x2x1 (![0, 1, 2] : Fin 3 → Fin S32x2x1.rank)
  reducesTo_S32x2x1_S32x2_d2 : S32x2x1.ReducesTo [2] S32x2
  h_S_ : 0 < S_.numel
  bcast_S32x2_S32x2x768_0_1 : S32x2.BroadcastsInDim S32x2x768 (![0, 1] : Fin 2 → Fin S32x2x768.rank)
  bcast_S_S32x2x768 : S_.BroadcastsInDim S32x2x768 (![] : Fin 0 → Fin S32x2x768.rank)
  slices_S32x2x512_S32x1x512_0_0_0 : S32x2x512.Slices ![0, 0, 0] S32x1x512
  shapeCasts_S32x1x512_S32x512 : S32x1x512.ShapeCasts S32x512
  bcast_S32x512_S32x512x1_0_1 : S32x512.BroadcastsInDim S32x512x1 (![0, 1] : Fin 2 → Fin S32x512x1.rank)
  bcast_S32x512x1_S32x512x768_0_1_2 : S32x512x1.BroadcastsInDim S32x512x768 (![0, 1, 2] : Fin 3 → Fin S32x512x768.rank)
  slices_S32x2x512_S32x1x512_0_1_0 : S32x2x512.Slices ![0, 1, 0] S32x1x512
  concatenates_S32x512x768_S32x512x768_S32x512x1536_d2 : Shape.Concatenates [S32x512x768, S32x512x768] S32x512x1536 2
  gather_S32x512x768_S32x2x1_S32x2x768_2_1_0_0_1_2_11768_wf : GatherDims.WF S32x512x768 S32x2x1 S32x2x768 [2] [1] [0] [1] [0] 2 ![1, 1, 768]
  dot_S32x2x768_S32x512x768_S32x2x512_2_2_1_1_0_0_wf : DotDims.WF S32x2x768 S32x512x768 S32x2x512 [2] [2] [1] [1] [0] [0]

variable [Facts₀]

def gather_S32x512x768_S32x2x1_S32x2x768_2_1_0_0_1_2_11768 : GatherDims S32x512x768 S32x2x1 S32x2x768 where
  offsetDims := [2]
  collapsedSliceDims := [1]
  operandBatchingDims := [0]
  startIndicesBatchingDims := [0]
  startIndexMap := [1]
  indexVectorDim := 2
  sliceSizes := ![1, 1, 768]
  wf := gather_S32x512x768_S32x2x1_S32x2x768_2_1_0_0_1_2_11768_wf
def dot_S32x2x768_S32x512x768_S32x2x512_2_2_1_1_0_0 : DotDims S32x2x768 S32x512x768 S32x2x512 where
  lhsContracting := [2]
  rhsContracting := [2]
  lhsNonContracting := [1]
  rhsNonContracting := [1]
  lhsBatch := [0]
  rhsBatch := [0]
  wf := dot_S32x2x768_S32x512x768_S32x2x512_2_2_1_1_0_0_wf

class Facts : Prop extends Facts₀ where

variable [Facts]
-- ==== Proof.Spec.lean ====
/-
  The function both programs compute, stated once over the argument arrays and importing neither program.

  For each example `b` two entity rows `E b 0`, `E b 1` (768 features each) are scored against every token row of the
  sentence `X b` (512 tokens, 768 features): `score E X b k l = ∑ d, E b k d · X b l d`. The result has 1536 features
  per token: feature `j` is the token's own feature `j mod 768` scaled by the token's score against entity
  `j / 768` — the first 768 features are the token row scaled by its score against entity 0, the last 768 the
  same row scaled by its score against entity 1.

  Nothing here needs the entries to be finite: the two programs agree term by term, so only the shape of the sum and
  of the product is used, never a law that fails at an infinity.
-/
import Idealize.ShloMosaic.PureOps.Ideal
import Idealize.ShloMosaic.Lib.ValueIdx

noncomputable section

namespace Cert.EntityScores

open Idealize.ShloMosaic Idealize.ShloMosaic.ValueIdx

/-- The sentence array: 32 examples, 512 tokens, 768 features. -/
abbrev Sent : Shape := ⟨3, ![32, 512, 768]⟩
/-- The entity rows: 32 examples, 2 entities, 768 features. -/
abbrev Ents : Shape := ⟨3, ![32, 2, 768]⟩
/-- The result: 32 examples, 512 tokens, 2 · 768 features. -/
abbrev Outs : Shape := ⟨3, ![32, 512, 1536]⟩

/-- Which entity a result feature belongs to: `j / 768`. -/
def half (j : Fin 1536) : Fin 2 := ⟨j.val / 768, by have := j.isLt; omega⟩
/-- Which feature of the token row a result feature scales: `j mod 768`. -/
def feat (j : Fin 1536) : Fin 768 := ⟨j.val % 768, by have := j.isLt; omega⟩

theorem half_val (j : Fin 1536) : (half j).val = j.val / 768 := rfl
theorem feat_val (j : Fin 1536) : (feat j).val = j.val % 768 := rfl

/-- The score of entity `k` of example `b` against token `l`: the inner product of the two rows over the features. -/
def score (E : FVec Ideal Ents .f32) (X : FVec Ideal Sent .f32) (b : Fin 32) (k : Fin 2) (l : Fin 512) : EReal :=
  ∑ d : Fin 768, E (ix3 b k d) * X (ix3 b l d)

/-- The result array: each token row twice, scaled by its score against entity 0 and against entity 1. -/
def scaled (E : FVec Ideal Ents .f32) (X : FVec Ideal Sent .f32) : FVec Ideal Outs .f32 := fun i =>
  X (ix3 (i 0) (i 1) (feat (i 2))) * score E X (i 0) (half (i 2)) (i 1)

/-- Two indices of a rank-3 array with the same three coordinates are the same index. -/
theorem idx3_ext {n0 n1 n2 : Nat} (u v : (⟨3, ![n0, n1, n2]⟩ : Shape).Idx)
    (h0 : (u 0).val = (v 0).val) (h1 : (u 1).val = (v 1).val) (h2 : (u 2).val = (v 2).val) : u = v := by
  funext a
  apply Fin.ext
  match a with
  | ⟨0, _⟩ => exact h0
  | ⟨1, _⟩ => exact h1
  | ⟨2, _⟩ => exact h2

/-- Two indices of a rank-2 array with the same two coordinates are the same index. -/
theorem idx2_ext {n0 n1 : Nat} (u v : (⟨2, ![n0, n1]⟩ : Shape).Idx)
    (h0 : (u 0).val = (v 0).val) (h1 : (u 1).val = (v 1).val) : u = v := by
  funext a
  apply Fin.ext
  match a with
  | ⟨0, _⟩ => exact h0
  | ⟨1, _⟩ => exact h1

end Cert.EntityScores

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.KernelBlock.lean ====
/-
  What the kernel body leaves in its output block, in the specification's terms.

  At a grid point the body sees one example: the block `P1` of its two entity rows (shape [1, 2, 768]) and the block
  `P0` of its sentence (shape [1, 512, 768]). It multiplies the two as matrices, contracting the feature axis of
  both (a [2, 768] by [512, 768] product into a zero accumulator), so entry `(k, l)` of the product is the score
  `∑ d, P1[0, k, d] · P0[0, l, d]` of entity `k` against token `l`. Row 0 and row 1 of the product are then laid
  out as columns, spread over the features and multiplied into the sentence block, and the two products are stored
  side by side in the [1, 512, 1536] output block. The generated value leg has already collected the two stores
  into ONE function of the block index `y`: the sentence block at `(0, y₁, y₂ mod 768)` times the matrix product at
  `(y₂ / 768, y₁)`. What is added here is the matrix product as the sum it is, at the ideal values.
-/
import proofs.«154720_j72507637891614_1_alg».proof.Proof.Gen.KernelIdeal.Value
import proofs.«154720_j72507637891614_1_alg».proof.Proof.Spec
import proofs.«154720_j72507637891614_1_alg».proof.Proof.LibContract1

noncomputable section

namespace Cert.KernelIdeal.BlockValue

open Cert.KernelIdeal Cert.KernelIdeal.Gen Cert.EntityScores
open Idealize.ShloMosaic Idealize.ShloMosaic.ValueIdx

/-! ## Where the product's dimension numbers send a result index and a contraction coordinate -/

/-- The left operand's row is the result's row. -/
theorem lhs_row (j : S2x512.Idx) (q : dot_S2x768_S512x768_S2x512_1_1_0_0_n_n.contr.Idx) :
    (dot_S2x768_S512x768_S2x512_1_1_0_0_n_n.lhsIdx j q 0).val = (j 0).val := by
  unfold DotDims.lhsIdx
  rw [dif_neg (show ¬(0 : Fin S2x768.rank) ∈ dot_S2x768_S512x768_S2x512_1_1_0_0_n_n.lhsBatch by decide),
    dif_pos (show (0 : Fin S2x768.rank) ∈ dot_S2x768_S512x768_S2x512_1_1_0_0_n_n.lhsNonContracting by decide)]
  rfl

/-- The left operand's feature is the contraction coordinate. -/
theorem lhs_feat (j : S2x512.Idx) (q : dot_S2x768_S512x768_S2x512_1_1_0_0_n_n.contr.Idx) :
    (dot_S2x768_S512x768_S2x512_1_1_0_0_n_n.lhsIdx j q 1).val = (q ⟨0, by decide⟩).val :=
  dot_S2x768_S512x768_S2x512_1_1_0_0_n_n.lhsIdx_val_of_single rfl j q

/-- The right operand's row is the result's column. -/
theorem rhs_row (j : S2x512.Idx) (q : dot_S2x768_S512x768_S2x512_1_1_0_0_n_n.contr.Idx) :
    (dot_S2x768_S512x768_S2x512_1_1_0_0_n_n.rhsIdx j q 0).val = (j 1).val := by
  unfold DotDims.rhsIdx
  rw [dif_neg (show ¬(0 : Fin S512x768.rank) ∈ dot_S2x768_S512x768_S2x512_1_1_0_0_n_n.rhsBatch by decide),
    dif_pos (show (0 : Fin S512x768.rank) ∈ dot_S2x768_S512x768_S2x512_1_1_0_0_n_n.rhsNonContracting by decide)]
  rfl

/-- The right operand's feature is the contraction coordinate. -/
theorem rhs_feat (j : S2x512.Idx) (q : dot_S2x768_S512x768_S2x512_1_1_0_0_n_n.contr.Idx) :
    (dot_S2x768_S512x768_S2x512_1_1_0_0_n_n.rhsIdx j q 1).val = (q ⟨0, by decide⟩).val :=
  dot_S2x768_S512x768_S2x512_1_1_0_0_n_n.rhsIdx_val_of_single rfl j q

/-! ## The matrix product is the score -/

/-- Entry `(k, l)` of the body's matrix product, at the ideal values: the inner product over the 768 features of
    entity row `k` and token row `l` of the two blocks. The blocks' leading unit axis is dropped by a reshape on
    each side, which keeps the row-major position: `(0 · R + r) · 768 + d = r · 768 + d`. -/
theorem product_entry (P1 : Vec Ideal S1x2x768 .f32) (P0 : Vec Ideal S1x512x768 .f32) (k : Fin 2) (l : Fin 512) :
    k0_pay2 (F := Ideal) P1 P0 (ix2 k l)
      = ∑ d : Fin 768, P1 (ix3 (0 : Fin 1) k d) * P0 (ix3 (0 : Fin 1) l d) := by
  show matmul dot_S2x768_S512x768_S2x512_1_1_0_0_n_n none (shapeCast S2x768 P1 shapeCasts_S1x2x768_S2x768)
      (shapeCast S512x768 P0 shapeCasts_S1x512x768_S512x768) (constant (F := Ideal) S2x512 .f32 0x00000000#32) (ix2 k l) = _
  refine (Cert.LibContract1.matmul_zero_single dot_S2x768_S512x768_S2x512_1_1_0_0_n_n 768 rfl rfl _ _ (ix2 k l)
    (fun d => ix2 k d) (fun d => ix2 l d) (fun d => ?_) (fun d => ?_)).trans ?_
  · exact idx2_ext _ _ (lhs_row _ _) ((lhs_feat _ _).trans (contrEquiv1_symm_val dot_S2x768_S512x768_S2x512_1_1_0_0_n_n 768 rfl rfl d))
  · exact idx2_ext _ _ (rhs_row _ _) ((rhs_feat _ _).trans (contrEquiv1_symm_val dot_S2x768_S512x768_S2x512_1_1_0_0_n_n 768 rfl rfl d))
  · refine Finset.sum_congr rfl fun d _ => ?_
    have hk : k.val < 2 := k.isLt
    have hl : l.val < 512 := l.isLt
    have hd : d.val < 768 := d.isLt
    have eL : shapeCast S2x768 P1 shapeCasts_S1x2x768_S2x768 (ix2 k d) = P1 (ix3 (0 : Fin 1) k d) :=
      shapeCast_apply P1 shapeCasts_S1x2x768_S2x768 (ix2 k d) (ix3 (0 : Fin 1) k d)
        (by rw [Shape.rowMajor_val_three, Shape.rowMajor_val_two]
            show (0 * 2 + k.val) * 768 + d.val = k.val * 768 + d.val; omega)
    have eR : shapeCast S512x768 P0 shapeCasts_S1x512x768_S512x768 (ix2 l d) = P0 (ix3 (0 : Fin 1) l d) :=
      shapeCast_apply P0 shapeCasts_S1x512x768_S512x768 (ix2 l d) (ix3 (0 : Fin 1) l d)
        (by rw [Shape.rowMajor_val_three, Shape.rowMajor_val_two]
            show (0 * 512 + l.val) * 768 + d.val = l.val * 768 + d.val; omega)
    rw [eL, eR]

/-! ## The output block -/

/-- THE OUTPUT BLOCK at a block index `y`: token `y₁`'s feature `y₂ mod 768` times the score of entity `y₂ / 768`
    against token `y₁`, all within the one example the blocks hold. -/
theorem block_entry (P0 : Vec Ideal S1x512x768 .f32) (P1 : Vec Ideal S1x2x768 .f32) (y : S1x512x1536.Idx) :
    Cert.KernelIdeal.Value.E2 (F := Ideal) P0 P1 y
      = P0 (ix3 (0 : Fin 1) (y 1) (feat (y 2)))
        * ∑ d : Fin 768, P1 (ix3 (0 : Fin 1) (half (y 2)) d) * P0 (ix3 (0 : Fin 1) (y 1) d) := by
  have e0 : Cert.KernelIdeal.Value.ix2_0 y = ix3 (0 : Fin 1) (y 1) (feat (y 2)) := idx3_ext _ _ rfl rfl rfl
  have e1 : Cert.KernelIdeal.Value.ix2_1 y = ix2 (half (y 2)) (y 1) := idx2_ext _ _ rfl rfl
  show P0 (Cert.KernelIdeal.Value.ix2_0 y) * k0_pay2 (F := Ideal) P1 P0 (Cert.KernelIdeal.Value.ix2_1 y) = _
  rw [e0, e1]
  exact congrArg (fun s => P0 (ix3 (0 : Fin 1) (y 1) (feat (y 2))) * s) (product_entry P1 P0 (half (y 2)) (y 1))

end Cert.KernelIdeal.BlockValue

end
-- ==== Proof.KernelArray.lean ====
/-
  From the blocks to the whole result array.

  The grid has 32 points, one per example. At point `t` the kernel stages example `t`'s two entity rows (a
  [1, 2, 768] block of the entity array), its sentence (a [1, 512, 768] block of the sentence array) and writes back
  a [1, 512, 1536] block of the result; all three blocks sit at block index `(t, 0, 0)`, so an index `(0, l, j)`
  inside a block is the index `(t, l, j)` of its array. What a point writes back is therefore the block at
  `(t, 0, 0)` of `scaled E X`, where `E` and `X` are the entity and sentence arrays as the region finds them; the 32
  blocks tile the result (index `(b, l, j)` lies in point `b`'s block), so the result array ends holding `scaled E X`.
-/
import proofs.«154720_j72507637891614_1_alg».proof.Proof.KernelBlock

noncomputable section

namespace Cert.KernelIdeal.ArrayValue

open Cert.KernelIdeal Cert.KernelIdeal.Gen Cert.EntityScores
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The offsets of a load of a whole rank-3 buffer. -/
theorem offsets_zero : (![0, 0, 0] : Fin 3 → Nat) = fun _ => 0 := funext fun a => by fin_cases a <;> rfl

/-- `scaled` at an index, assembled from its parts: the token's own feature and, feature by feature, the entity row
    and the token row entering the score. -/
theorem scaled_of_parts (E : FVec Ideal Ents .f32) (X : FVec Ideal Sent .f32) (i : Outs.Idx) (a : EReal)
    (f g : Fin 768 → EReal)
    (ha : a = X (ix3 (i 0) (i 1) (feat (i 2))))
    (hf : ∀ d, f d = E (ix3 (i 0) (half (i 2)) d))
    (hg : ∀ d, g d = X (ix3 (i 0) (i 1) d)) :
    a * ∑ d : Fin 768, f d * g d = scaled E X i := by
  unfold scaled score
  rw [ha]
  congr 1
  exact Finset.sum_congr rfl fun d _ => by rw [hf d, hg d]

/-- The three windows' block indices, decided over the 32 grid points: all three move together along the example
    axis and stay at block 0 on the token and feature axes. -/
theorem index_facts : ∀ t : Fin cfg0.N,
    win0_0.index t (0 : Fin 3) = win0_2.index t (0 : Fin 3)
    ∧ win0_0.index t (1 : Fin 3) = 0 ∧ win0_0.index t (2 : Fin 3) = 0
    ∧ win0_1.index t (0 : Fin 3) = win0_2.index t (0 : Fin 3)
    ∧ win0_1.index t (1 : Fin 3) = 0 ∧ win0_1.index t (2 : Fin 3) = 0
    ∧ win0_2.index t (1 : Fin 3) = 0 ∧ win0_2.index t (2 : Fin 3) = 0 :=
  (by decide +kernel : ∀ t : Fin grid0.N, _)

/-- Every example's block is some grid point's. -/
theorem index_onto : ∀ q : Fin 32, ∃ t : Fin cfg0.N, win0_2.index t = ![q.val, 0, 0] :=
  (by decide +kernel : ∀ q : Fin 32, ∃ t : Fin grid0.N, win0_2.index t = ![q.val, 0, 0])

set_option maxHeartbeats 1000000 in
/-- WHAT POINT `t` WRITES BACK is the block at `t` of `scaled` of the entity rows and the sentence array as the
    region finds them. -/
theorem flushed_eq (c : Dev nD) (t : Fin cfg0.N) :
    (dats m 0 c).flushed 2 t
      = ((cfg0.win 2).blk t).view.read (Elt Ideal) (scaled (V m c main_v1) (V m c main_arg0)) := by
  rw [Cert.KernelIdeal.Value.flushed2]
  unfold out0_2
  simp only [View.ld_unit_zero (S := S1x2x768) offsets_zero, View.ld_unit_zero (S := S1x512x768) offsets_zero]
  obtain ⟨a0, a1, a2, b0, b1, b2, c1, c2⟩ := index_facts t
  funext y
  have hy0 : (y 0).val < 1 := (y 0).isLt
  have hy1 : (y 1).val < 512 := (y 1).isLt
  have hy2 : (y 2).val < 1536 := (y 2).isLt
  refine (Cert.KernelIdeal.Value.canon2_eq (F := Ideal) (iblk m c 1 t) (iblk m c 0 t) y).trans ?_
  refine (Cert.KernelIdeal.BlockValue.block_entry (iblk m c 1 t) (iblk m c 0 t) y).trans ?_
  -- the token's own feature, read through the sentence block
  have hx : ((cfg0.win 1).blk t).view.emb (ix3 (0 : Fin 1) (y 1) (feat (y 2)))
      = ix3 ((((cfg0.win 2).blk t).view.emb y) 0) ((((cfg0.win 2).blk t).view.emb y) 1) (feat ((((cfg0.win 2).blk t).view.emb y) 2)) := by
    funext a; apply Fin.ext
    match a with
    | ⟨0, _⟩ => show win0_1.index t (0 : Fin 3) * 1 + 1 * 0 = win0_2.index t (0 : Fin 3) * 1 + 1 * (y 0).val; omega
    | ⟨1, _⟩ => show win0_1.index t (1 : Fin 3) * 512 + 1 * (y 1).val = win0_2.index t (1 : Fin 3) * 512 + 1 * (y 1).val; omega
    | ⟨2, _⟩ => show win0_1.index t (2 : Fin 3) * 768 + 1 * ((y 2).val % 768) = (win0_2.index t (2 : Fin 3) * 1536 + 1 * (y 2).val) % 768; omega
  -- the entity row's feature `d`, read through the entity block
  have he : ∀ d : Fin 768, ((cfg0.win 0).blk t).view.emb (ix3 (0 : Fin 1) (half (y 2)) d)
      = ix3 ((((cfg0.win 2).blk t).view.emb y) 0) (half ((((cfg0.win 2).blk t).view.emb y) 2)) d := by
    intro d
    funext a; apply Fin.ext
    match a with
    | ⟨0, _⟩ => show win0_0.index t (0 : Fin 3) * 1 + 1 * 0 = win0_2.index t (0 : Fin 3) * 1 + 1 * (y 0).val; omega
    | ⟨1, _⟩ => show win0_0.index t (1 : Fin 3) * 2 + 1 * ((y 2).val / 768) = (win0_2.index t (2 : Fin 3) * 1536 + 1 * (y 2).val) / 768; omega
    | ⟨2, _⟩ => show win0_0.index t (2 : Fin 3) * 768 + 1 * d.val = d.val; omega
  -- the token row's feature `d`, read through the sentence block
  have hs : ∀ d : Fin 768, ((cfg0.win 1).blk t).view.emb (ix3 (0 : Fin 1) (y 1) d)
      = ix3 ((((cfg0.win 2).blk t).view.emb y) 0) ((((cfg0.win 2).blk t).view.emb y) 1) d := by
    intro d
    funext a; apply Fin.ext
    match a with
    | ⟨0, _⟩ => show win0_1.index t (0 : Fin 3) * 1 + 1 * 0 = win0_2.index t (0 : Fin 3) * 1 + 1 * (y 0).val; omega
    | ⟨1, _⟩ => show win0_1.index t (1 : Fin 3) * 512 + 1 * (y 1).val = win0_2.index t (1 : Fin 3) * 512 + 1 * (y 1).val; omega
    | ⟨2, _⟩ => show win0_1.index t (2 : Fin 3) * 768 + 1 * d.val = d.val; omega
  exact scaled_of_parts (V m c main_v1) (V m c main_arg0) (((cfg0.win 2).blk t).view.emb y)
    (iblk m c 1 t (ix3 (0 : Fin 1) (y 1) (feat (y 2))))
    (fun d => iblk m c 0 t (ix3 (0 : Fin 1) (half (y 2)) d))
    (fun d => iblk m c 1 t (ix3 (0 : Fin 1) (y 1) d))
    (congrArg (V m c main_arg0) hx)
    (fun d => congrArg (V m c main_v1) (he d))
    (fun d => congrArg (V m c main_arg0) (hs d))

/-- An index of the result is in point `t`'s block iff each coordinate is in the block's range on its axis. -/
theorem mem_blk (t : Fin cfg0.N) (i : S32x512x1536.Idx) :
    i ∈ ((cfg0.win 2).blk t).view.set ↔ ∀ a : Fin 3, win0_2.index t a * S1x512x1536.size a ≤ (i a).val
      ∧ (i a).val < win0_2.index t a * S1x512x1536.size a + S1x512x1536.size a := by
  show i ∈ ((View.whole main_v2).slice (win0_2.rect t)).set ↔ _
  rw [View.set_slice_whole, Rect.mem_set_unit]
  exact Iff.rfl

/-- The 32 blocks tile the result: index `(b, l, j)` lies in the block of the point whose block index is `b`. -/
theorem cover (i : S32x512x1536.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 1536 := (i 2).isLt
  obtain ⟨t, ht⟩ := index_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1536 ≤ (i 2).val ∧ (i 2).val < win0_2.index t (2 : Fin 3) * 1536 + 1536; omega

/-- THE RESULT ARRAY after the run is `scaled` of the entity rows and the sentence array as the region finds them. -/
theorem final (c : Dev nD) :
    (dats m 0 c).arrAt 2 cfg0.N = scaled (V m c main_v1) (V m c main_arg0) :=
  (dats m 0 c).arrAt_eq_of_cover 2 (scaled (V m c main_v1) (V m c main_arg0)) (fun t _ => flushed_eq m c t) cover

end Cert.KernelIdeal.ArrayValue

end
-- ==== Proof.EntityRows.lean ====
/-
  The entity rows the kernel's region finds are the reference's entity rows.

  Before launching the region the kernel's host code gathers, for each example, the two sentence rows its index pair
  names (negative indices wrapped by 512 first; a row whose wrapped index falls outside 0..511 filled with the
  fill value instead). The reference's first stage is the same sequence of operations on the same arguments, so
  the array the region's first window stages is, as a function of the two argument arrays, the reference's
  entity-row stage. Nothing about the gather is used beyond that: it is the same term on both sides.
-/
import proofs.«154720_j72507637891614_1_alg».proof.Proof.Gen.KernelIdeal.Frame
import proofs.«154720_j72507637891614_1_alg».proof.Proof.Gen.ReferenceIdeal.Read

noncomputable section

namespace Cert.KernelIdeal.EntityRows

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 4000000 in
/-- The array the region's entity window stages, after the host operations in front of the region, is the
    reference's entity-row stage of the two argument arrays as launched. -/
theorem found (c : Dev nD) :
    (V m c main_v1 : S32x2x768.Idx → EReal)
      = Cert.ReferenceIdeal.Read.val_main_v1 (F := Ideal) (m ((c : Thread nD τ).loc main_arg0))
          (m ((c : Thread nD τ).loc main_arg1)) := by
  dsimp only [V]
  simp only [hostOps0, hostOps0_1, List.flatten_cons, List.flatten_nil, List.append_nil, List.cons_append,
    List.nil_append]
  after_results_simp
  rfl

end Cert.KernelIdeal.EntityRows

end
-- ==== Proof.RefScores.lean ====
/-
  The reference's result, read at an index, is the specification `scaled` of the entity rows its first stage
  gathers and of the sentence array.

  The reference forms all scores at once, `att[b, k, l] = ∑ d, E[b, k, d] · X[b, l, d]` (one batched product,
  contracting the feature axis of both operands), takes the plane `k = 0` and the plane `k = 1`, lays each out as a
  column per token, spreads the column over the 768 features, multiplies the sentence array by it, and joins the two
  products along the feature axis. So a result feature `j < 768` comes from the first product at feature `j`, and a
  feature `j ≥ 768` from the second at `j - 768`: feature `j mod 768` scaled by the score against entity `j / 768`.
  The entity rows `E` are whatever the first stage produces; that stage is never opened here.
-/
import proofs.«154720_j72507637891614_1_alg».proof.Proof.Gen.ReferenceIdeal.Read
import proofs.«154720_j72507637891614_1_alg».proof.Proof.Spec

noncomputable section

namespace Cert.ReferenceIdeal.RefValue

open Cert.ReferenceIdeal Cert.ReferenceIdeal.Gen Cert.ReferenceIdeal.Read Cert.EntityScores
open Idealize.ShloMosaic Idealize.ShloMosaic.ValueIdx

/-- The column spread for the FIRST product, at a sentence index `p`: the score of entity 0 of `p`'s example against
    `p`'s token. The plane `k = 0` of the batched product, re-laid and spread, is read back to the product's entry
    `(b, 0, l)`; the token coordinate survives the reshape because `(b · 512 + l) / 512 = b` and
    `(b · 512 + l) mod 512 = l` for `l < 512`. -/
theorem column0 (x0 : (⟨S32x512x768, .f32⟩ : BufTy).Contents (Elt Ideal)) (x1 : (⟨S32x2, .i32⟩ : BufTy).Contents (Elt Ideal))
    (p : S32x512x768.Idx) :
    val_main_v6 (F := Ideal) x0 x1 p = score (val_main_v1 (F := Ideal) x0 x1) x0 (p 0) (0 : Fin 2) (p 1) := by
  have h0 : (p 0).val < 32 := (p 0).isLt
  have h1 : (p 1).val < 512 := (p 1).isLt
  rw [val_main_v6_apply, val_main_v5_apply, val_main_v4_apply, val_main_v3_apply, val_main_v2_apply]
  unfold score
  refine Finset.sum_congr rfl fun k _ => ?_
  have el : lidx_main_v2 (idx_main_v3 (idx_main_v4 (idx_main_v5 (idx_main_v6 p)))) k = ix3 (p 0) (0 : Fin 2) k :=
    idx3_ext _ _ (by show ((p 0).val * 512 + (p 1).val) / 512 = (p 0).val; omega) rfl rfl
  have er : ridx_main_v2 (idx_main_v3 (idx_main_v4 (idx_main_v5 (idx_main_v6 p)))) k = ix3 (p 0) (p 1) k :=
    idx3_ext _ _ (by show ((p 0).val * 512 + (p 1).val) / 512 = (p 0).val; omega)
      (by show ((p 0).val * 512 + (p 1).val) % 512 = (p 1).val; omega) rfl
  rw [el, er]
  rfl

/-- The column spread for the SECOND product, at a sentence index `p`: the score of entity 1 against `p`'s token
    (the plane `k = 1` of the batched product). -/
theorem column1 (x0 : (⟨S32x512x768, .f32⟩ : BufTy).Contents (Elt Ideal)) (x1 : (⟨S32x2, .i32⟩ : BufTy).Contents (Elt Ideal))
    (p : S32x512x768.Idx) :
    val_main_v11 (F := Ideal) x0 x1 p = score (val_main_v1 (F := Ideal) x0 x1) x0 (p 0) (1 : Fin 2) (p 1) := by
  have h0 : (p 0).val < 32 := (p 0).isLt
  have h1 : (p 1).val < 512 := (p 1).isLt
  rw [val_main_v11_apply, val_main_v10_apply, val_main_v9_apply, val_main_v8_apply, val_main_v2_apply]
  unfold score
  refine Finset.sum_congr rfl fun k _ => ?_
  have el : lidx_main_v2 (idx_main_v8 (idx_main_v9 (idx_main_v10 (idx_main_v11 p)))) k = ix3 (p 0) (1 : Fin 2) k :=
    idx3_ext _ _ (by show ((p 0).val * 512 + (p 1).val) / 512 = (p 0).val; omega) rfl rfl
  have er : ridx_main_v2 (idx_main_v8 (idx_main_v9 (idx_main_v10 (idx_main_v11 p)))) k = ix3 (p 0) (p 1) k :=
    idx3_ext _ _ (by show ((p 0).val * 512 + (p 1).val) / 512 = (p 0).val; omega)
      (by show ((p 0).val * 512 + (p 1).val) % 512 = (p 1).val; omega) rfl
  rw [el, er]
  rfl

/-- THE REFERENCE'S RESULT is `scaled` of its gathered entity rows and the sentence array: below feature 768 the
    joined array is the first product, from 768 on the second, 768 features back. -/
theorem result_eq (x0 : (⟨S32x512x768, .f32⟩ : BufTy).Contents (Elt Ideal)) (x1 : (⟨S32x2, .i32⟩ : BufTy).Contents (Elt Ideal)) :
    val_main_v13 (F := Ideal) x0 x1 = scaled (val_main_v1 (F := Ideal) x0 x1) x0 := by
  funext i
  have h2 : (i 2).val < 1536 := (i 2).isLt
  unfold val_main_v13 scaled
  by_cases h : (i 2).val < 768
  · -- a feature of the first product
    refine (concatenate_pair_apply_left (s₁ := S32x512x768) (s₂ := S32x512x768) 2 _ _ _ i rfl (ix3 (i 0) (i 1) (⟨(i 2).val, h⟩ : Fin 768))
      (fun b => match b with | ⟨0, _⟩ => rfl | ⟨1, _⟩ => rfl | ⟨2, _⟩ => rfl)).trans ?_
    rw [val_main_v7_apply, column0]
    have e1 : (⟨(i 2).val, h⟩ : Fin 768) = feat (i 2) := Fin.ext (by show (i 2).val = (i 2).val % 768; omega)
    have e2 : (0 : Fin 2) = half (i 2) := Fin.ext (by show 0 = (i 2).val / 768; omega)
    rw [e1, e2]
    rfl
  · -- a feature of the second product, 768 back
    have h' : (i 2).val - 768 < 768 := by omega
    refine (concatenate_pair_apply_right (s₁ := S32x512x768) (s₂ := S32x512x768) 2 _ _ _ i rfl rfl (ix3 (i 0) (i 1) (⟨(i 2).val - 768, h'⟩ : Fin 768))
      (fun b => match b with
        | ⟨0, _⟩ => fun _ => rfl
        | ⟨1, _⟩ => fun _ => rfl
        | ⟨2, _⟩ => fun hne => absurd rfl hne)
      (by show (i 2).val - 768 + 768 = (i 2).val; omega)).trans ?_
    rw [val_main_v12_apply, column1]
    have e1 : (⟨(i 2).val - 768, h'⟩ : Fin 768) = feat (i 2) := Fin.ext (by show (i 2).val - 768 = (i 2).val % 768; omega)
    have e2 : (1 : Fin 2) = half (i 2) := Fin.ext (by show 1 = (i 2).val / 768; omega)
    rw [e1, e2]
    rfl

end Cert.ReferenceIdeal.RefValue

end
-- ==== Proof.lean ====
/-
  The proof of `Cert.Claim`: the kernel, its idealization and the idealized reference each run to the end with their
  argument arrays unchanged, the idealization rewrites nothing, and at the ideal values the kernel and the reference
  end with the same result array.

  THE MATHEMATICS. Both programs first gather, for each of the 32 examples, the two sentence rows named by its index
  pair: the entity rows `E` (32 x 2 x 768). With `X` the sentence array (32 x 512 x 768) both then compute

      out[b, l, j] = X[b, l, j mod 768] · ∑ d, E[b, j / 768, d] · X[b, l, d]        (j < 1536),

  token `l`'s row written twice, scaled by its score against entity 0 and against entity 1 (`Spec.lean`: `scaled E X`).

  The kernel does it one example per grid point: a [2, 768] by [512, 768] matrix product into a zero accumulator
  gives the scores (`KernelBlock.lean`: the product's entry is the sum above, and the block the two stores leave is
  the formula within one example), and the 32 output blocks tile the result (`KernelArray.lean`). The reference
  does it for all examples at once: one batched product, its two planes spread over the features, two elementwise
  products joined along the feature axis (`RefScores.lean`). The gather is the same text in both programs and is
  never opened: the array the kernel's region finds is the reference's entity-row stage (`EntityRows.lean`).

  The two sides agree summand by summand and factor by factor, so no law of arithmetic that could fail at an
  infinite entry is used, and the precondition that the inputs are finite is not needed for the values.
-/
import proofs.«154720_j72507637891614_1_alg».proof.Defs
import proofs.«154720_j72507637891614_1_alg».proof.Proof.Gen.Kernel
import proofs.«154720_j72507637891614_1_alg».proof.Proof.Gen.Kernel.Skeleton
import proofs.«154720_j72507637891614_1_alg».proof.Proof.Gen.Kernel.Launch
import proofs.«154720_j72507637891614_1_alg».proof.Proof.Gen.Kernel.Points
import proofs.«154720_j72507637891614_1_alg».proof.Proof.Gen.Kernel.Frame
import proofs.«154720_j72507637891614_1_alg».proof.Proof.Gen.KernelIdeal
import proofs.«154720_j72507637891614_1_alg».proof.Proof.Gen.KernelIdeal.Skeleton
import proofs.«154720_j72507637891614_1_alg».proof.Proof.Gen.KernelIdeal.Launch
import proofs.«154720_j72507637891614_1_alg».proof.Proof.Gen.KernelIdeal.Points
import proofs.«154720_j72507637891614_1_alg».proof.Proof.Gen.KernelIdeal.Frame
import proofs.«154720_j72507637891614_1_alg».proof.Proof.Gen.ReferenceIdeal
import proofs.«154720_j72507637891614_1_alg».proof.Proof.Gen.KernelIdeal.Value
import proofs.«154720_j72507637891614_1_alg».proof.Proof.Gen.ReferenceIdeal.Run
import proofs.«154720_j72507637891614_1_alg».proof.Proof.Gen.ReferenceIdeal.Read
import proofs.«154720_j72507637891614_1_alg».proof.Proof.Gen.Pre_finite_inputs
import proofs.«154720_j72507637891614_1_alg».proof.Proof.KernelArray
import proofs.«154720_j72507637891614_1_alg».proof.Proof.EntityRows
import proofs.«154720_j72507637891614_1_alg».proof.Proof.RefScores
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- The kernel's run at the ideal values: its result array ends at `scaled` of the gathered entity rows and the
    sentence array, both as functions of the two arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v2)
          = Cert.EntityScores.scaled
              (Cert.ReferenceIdeal.Read.val_main_v1 (F := Ideal)
                (m ((c.tc : Thread Cert.KernelIdeal.nD Cert.KernelIdeal.τ).loc Cert.KernelIdeal.main_arg0))
                (m ((c.tc : Thread Cert.KernelIdeal.nD Cert.KernelIdeal.τ).loc Cert.KernelIdeal.main_arg1)))
              (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1) := by
  refine (θ_run Cert.KernelIdeal.defs _ _).mono (fun r h c => ⟨(h c).1.trans ?_, (h c).2⟩)
    (Cert.KernelIdeal.Value.run_blocks (F := Ideal) m ρ)
  rw [Cert.KernelIdeal.ArrayValue.final m c, Cert.KernelIdeal.EntityRows.found m c, Cert.KernelIdeal.Gen.V_main_arg0 m c]

/-- From memories that agree on the two arguments, the kernel and the reference end with the same result: both
    are `scaled` of the same entity rows and the same sentence array. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
